-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64 : Shape := ⟨2, ![256, 64]⟩
abbrev S512x32 : Shape := ⟨2, ![512, 32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S4x128 : Shape := ⟨2, ![4, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S4x128 : S_.BroadcastsInDim S4x128 (![] : Fin 0 → Fin S4x128.rank)
  reducesTo_S4x128_S_d0_1 : S4x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S4x128 .f32) (main_arg15 : FVec F S256x256 .f32) (main_arg16 : FVec F S256 .f32) (main_arg17 : FVec F S1x256 .f32) (main_arg18 : FVec F S1 .f32) (main_v63 : IVec S_ 1) (main_v67 : IVec S_ 1) : IVec S_ 1 :=
  let main_v68 : IVec S_ 1 := andi main_v63 main_v67
  let main_v69 : FVec F S4x128 .f32 := Host.absf main_arg14
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S1x256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128 .f32) (main_arg12 : FVec F S128x128 .f32) (main_arg13 : FVec F S128 .f32) (main_arg14 : FVec F S4x128 .f32) (main_arg15 : FVec F S256x256 .f32) (main_arg16 : FVec F S256 .f32) (main_arg17 : FVec F S1x256 .f32) (main_arg18 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_v63 main_v67

def fn_part2 {F : FTy → Type} [FloatOps F] (main_arg7 : FVec F S128 .f32) (main_arg8 : FVec F S128x32 .f32) (main_arg9 : FVec F S128 .f32) (main_arg10 : FVec F S128x128 .f32) (main_arg11 : FVec F S128 .f32) (main_arg12 : FVec F S128x128 .f32) (main_arg13 : FVec F S128 .f32) (main_arg14 : FVec F S4x128 .f32) (main_arg15 : FVec F S256x256 .f32) (main_arg16 : FVec F S256 .f32) (main_arg17 : FVec F S1x256 .f32) (main_arg18 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg8
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x32 .f32) (main_arg9 : FVec F S128 .f32) (main_arg10 : FVec F S128x128 .f32) (main_arg11 : FVec F S128 .f32) (main_arg12 : FVec F S128x128 .f32) (main_arg13 : FVec F S128 .f32) (main_arg14 : FVec F S4x128 .f32) (main_arg15 : FVec F S256x256 .f32) (main_arg16 : FVec F S256 .f32) (main_arg17 : FVec F S1x256 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S256x64 .f32) (main_arg1 : FVec F S512x32 .f32) (main_arg2 : FVec F S128x64 .f32) (main_arg3 : FVec F S128 .f32) (main_arg4 : FVec F S128x128 .f32) (main_arg5 : FVec F S128 .f32) (main_arg6 : FVec F S128x128 .f32) (main_arg7 : FVec F S128 .f32) (main_arg8 : FVec F S128x32 .f32) (main_arg9 : FVec F S128 .f32) (main_arg10 : FVec F S128x128 .f32) (main_arg11 : FVec F S128 .f32) (main_arg12 : FVec F S128x128 .f32) (main_arg13 : FVec F S128 .f32) (main_arg14 : FVec F S4x128 .f32) (main_arg15 : FVec F S256x256 .f32) (main_arg16 : FVec F S256 .f32) (main_arg17 : FVec F S1x256 .f32) (main_arg18 : FVec F S1 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S256x64 : Shape := ⟨2, ![256, 64]⟩
abbrev S512x32 : Shape := ⟨2, ![512, 32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S4x128 : Shape := ⟨2, ![4, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x128 : Shape := ⟨2, ![64, 128]⟩
abbrev S256x128 : Shape := ⟨2, ![256, 128]⟩
abbrev S1x128 : Shape := ⟨2, ![1, 128]⟩
abbrev S_ : Shape := ⟨0, ![]⟩
abbrev S32x128 : Shape := ⟨2, ![32, 128]⟩
abbrev S512x128 : Shape := ⟨2, ![512, 128]⟩
abbrev S128x256 : Shape := ⟨2, ![128, 256]⟩
abbrev S4x256 : Shape := ⟨2, ![4, 256]⟩
abbrev S512x256 : Shape := ⟨2, ![512, 256]⟩
abbrev S4x1x256 : Shape := ⟨3, ![4, 1, 256]⟩
abbrev S1x1 : Shape := ⟨2, ![1, 1]⟩
abbrev S4x256x512 : Shape := ⟨3, ![4, 256, 512]⟩
abbrev S32x256 : Shape := ⟨2, ![32, 256]⟩
abbrev S1x1x256 : Shape := ⟨3, ![1, 1, 256]⟩
abbrev S1x32x128 : Shape := ⟨3, ![1, 32, 128]⟩
abbrev S32x1x256 : Shape := ⟨3, ![32, 1, 256]⟩
abbrev S1x128x256 : Shape := ⟨3, ![1, 128, 256]⟩
abbrev S32x128x256 : Shape := ⟨3, ![32, 128, 256]⟩

abbrev nBuf : Space → Nat
  | .hbm => 75
  | .vmem => 10
  | .smem => 0
  | _ => 0

abbrev bufTy : (tb : Table) → Fin (tcTables nBuf tb) → BufTy
  | .hbm, ⟨0, _⟩ => ⟨S256x64, .f32⟩
  | .hbm, ⟨1, _⟩ => ⟨S512x32, .f32⟩
  | .hbm, ⟨2, _⟩ => ⟨S128x64, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x32, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S4x128, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S64x128, .f32⟩
  | .hbm, ⟨20, _⟩ => ⟨S256x128, .f32⟩
  | .hbm, ⟨21, _⟩ => ⟨S1x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S128x128, .f32⟩
  | .hbm, ⟨28, _⟩ => ⟨S256x128, .f32⟩
  | .hbm, ⟨29, _⟩ => ⟨S1x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S128x128, .f32⟩
  | .hbm, ⟨36, _⟩ => ⟨S256x128, .f32⟩
  | .hbm, ⟨37, _⟩ => ⟨S1x128, .f32⟩
  | .hbm, ⟨38, _⟩ => ⟨S256x128, .f32⟩
  | .hbm, ⟨39, _⟩ => ⟨S256x128, .f32⟩
  | .hbm, ⟨40, _⟩ => ⟨S32x128, .f32⟩
  | .hbm, ⟨41, _⟩ => ⟨S512x128, .f32⟩
  | .hbm, ⟨42, _⟩ => ⟨S1x128, .f32⟩
  | .hbm, ⟨43, _⟩ => ⟨S512x128, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S128x128, .f32⟩
  | .hbm, ⟨49, _⟩ => ⟨S512x128, .f32⟩
  | .hbm, ⟨50, _⟩ => ⟨S1x128, .f32⟩
  | .hbm, ⟨51, _⟩ => ⟨S512x128, .f32⟩
  | .hbm, ⟨52, _⟩ => ⟨S512x128, .f32⟩
  | .hbm, ⟨53, _⟩ => ⟨S_, .f32⟩
  | .hbm, ⟨54, _⟩ => ⟨S512x128, .f32⟩
  | .hbm, ⟨55, _⟩ => ⟨S512x128, .f32⟩
  | .hbm, ⟨56, _⟩ => ⟨S128x128, .f32⟩
  | .hbm, ⟨57, _⟩ => ⟨S512x128, .f32⟩
  | .hbm, ⟨58, _⟩ => ⟨S1x128, .f32⟩
  | .hbm, ⟨59, _⟩ => ⟨S512x128, .f32⟩
  | .hbm, ⟨60, _⟩ => ⟨S512x128, .f32⟩
  | .hbm, ⟨61, _⟩ => ⟨S256x128, .f32⟩
  | .hbm, ⟨62, _⟩ => ⟨S256x128, .f32⟩
  | .hbm, ⟨63, _⟩ => ⟨S128x256, .f32⟩
  | .hbm, ⟨64, _⟩ => ⟨S256x256, .f32⟩
  | .hbm, ⟨65, _⟩ => ⟨S128x256, .f32⟩
  | .hbm, ⟨66, _⟩ => ⟨S4x256, .f32⟩
  | .hbm, ⟨67, _⟩ => ⟨S128x256, .f32⟩
  | .hbm, ⟨68, _⟩ => ⟨S512x256, .f32⟩
  | .hbm, ⟨69, _⟩ => ⟨S1x256, .f32⟩
  | .hbm, ⟨70, _⟩ => ⟨S4x256, .f32⟩
  | .hbm, ⟨71, _⟩ => ⟨S4x256, .f32⟩
  | .hbm, ⟨72, _⟩ => ⟨S4x1x256, .f32⟩
  | .hbm, ⟨73, _⟩ => ⟨S1x1, .f32⟩
  | .hbm, ⟨74, _⟩ => ⟨S4x256x512, .f32⟩
  | .local _ .vmem, ⟨0, _⟩ => ⟨S32x256, .f32⟩
  | .local _ .vmem, ⟨1, _⟩ => ⟨S32x256, .f32⟩
  | .local _ .vmem, ⟨2, _⟩ => ⟨S128x256, .f32⟩
  | .local _ .vmem, ⟨3, _⟩ => ⟨S128x256, .f32⟩
  | .local _ .vmem, ⟨4, _⟩ => ⟨S1x1x256, .f32⟩
  | .local _ .vmem, ⟨5, _⟩ => ⟨S1x1x256, .f32⟩
  | .local _ .vmem, ⟨6, _⟩ => ⟨S1x256, .f32⟩
  | .local _ .vmem, ⟨7, _⟩ => ⟨S1x1, .f32⟩
  | .local _ .vmem, ⟨8, _⟩ => ⟨S1x32x128, .f32⟩
  | .local _ .vmem, ⟨9, _⟩ => ⟨S1x32x128, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_cst : Ref sig .tc := ⟨.hbm, 32, rfl⟩
abbrev main_call1_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call3_cst : Ref sig .tc := ⟨.hbm, 53, rfl⟩
abbrev main_call3_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  transposes_S128x64_S64x128_1_0 : S128x64.Transposes [1, 0] S64x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  transposes_S128x128_S128x128_1_0 : S128x128.Transposes [1, 0] S128x128
  transposes_S128x32_S32x128_1_0 : S128x32.Transposes [1, 0] S32x128
  bcast_S1x128_S512x128_0_1 : S1x128.BroadcastsInDim S512x128 (![0, 1] : Fin 2 → Fin S512x128.rank)
  bcast_S_S512x128 : S_.BroadcastsInDim S512x128 (![] : Fin 0 → Fin S512x128.rank)
  slices_S256x256_S256x128_0_0 : S256x256.Slices ![0, 0] S256x128
  slices_S256x256_S256x128_0_128 : S256x256.Slices ![0, 128] S256x128
  transposes_S256x128_S128x256_1_0 : S256x128.Transposes [1, 0] S128x256
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  shapeCasts_S4x256_S4x1x256 : S4x256.ShapeCasts S4x1x256
  shapeCasts_S1_S1x1 : S1.ShapeCasts S1x1
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x256_S1x256_0_0 : ∀ a, (![0, 0] : Fin 2 → Nat) a + S1x256.size a ≤ S1x256.size a
  h_S1x256 : 0 < S1x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S32x256 : S1x256.Broadcasts S32x256
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S1x256_S1x1x256 : S1x256.ShapeCasts S1x1x256
  broadcasts_S1x1x256_S32x128x256 : S1x1x256.Broadcasts S32x128x256
  reduces_S32x128x256_S32x128 : S32x128x256.Reduces [2] S32x128
  broadcasts_S1x1_S32x128 : S1x1.Broadcasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S256x64_S64x128_S256x128_1_0_0_1_n_n_wf : DotDims.WF S256x64 S64x128 S256x128 [1] [0] [0] [1] [] []
  dot_S256x128_S128x128_S256x128_1_0_0_1_n_n_wf : DotDims.WF S256x128 S128x128 S256x128 [1] [0] [0] [1] [] []
  dot_S512x32_S32x128_S512x128_1_0_0_1_n_n_wf : DotDims.WF S512x32 S32x128 S512x128 [1] [0] [0] [1] [] []
  dot_S512x128_S128x128_S512x128_1_0_0_1_n_n_wf : DotDims.WF S512x128 S128x128 S512x128 [1] [0] [0] [1] [] []
  dot_S256x128_S128x256_S256x256_1_0_0_1_n_n_wf : DotDims.WF S256x128 S128x256 S256x256 [1] [0] [0] [1] [] []
  dot_S4x128_S128x256_S4x256_1_0_0_1_n_n_wf : DotDims.WF S4x128 S128x256 S4x256 [1] [0] [0] [1] [] []
  dot_S512x128_S128x256_S512x256_1_0_0_1_n_n_wf : DotDims.WF S512x128 S128x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S256x256.size a
  hwx0_0 : ∀ i : grid0.Coords, EltTy.bits .f32 = 32 ∨ (Rect.block (s := S256x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x256.size a
  hwx0_2 : ∀ i : grid0.Coords, EltTy.bits .f32 = 32 ∨ (Rect.block (s := S4x1x256) S1x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x128.size a ≤ S4x256x512.size a
  hwx0_5 : ∀ i : grid0.Coords, EltTy.bits .f32 = 32 ∨ (Rect.block (s := S4x256x512) S1x32x128.size (cc0_transform_5 i) (hinb0_5 i)).WholeWords (EltTy.packing .f32)

variable [Facts₀]

def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S4x128_S128x256_S4x256_1_0_0_1_n_n : DotDims S4x128 S128x256 S4x256 where
  lhsContracting := [1]
  rhsContracting := [0]
  lhsNonContracting := [0]
  rhsNonContracting := [1]
  lhsBatch := []
  rhsBatch := []
  wf := dot_S4x128_S128x256_S4x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf

abbrev win0_0 : Pipeline.Window sig grid0 :=
  Pipeline.Window.ofSpec (Memref.whole main_v37) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg17) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x64 : Shape := ⟨2, ![256, 64]⟩
abbrev S512x32 : Shape := ⟨2, ![512, 32]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S4x128 : Shape := ⟨2, ![4, 128]⟩
abbrev S256x256 : Shape := ⟨2, ![256, 256]⟩
abbrev S256 : Shape := ⟨1, ![256]⟩
abbrev S1x256 : Shape := ⟨2, ![1, 256]⟩
abbrev S1 : Shape := ⟨1, ![1]⟩
abbrev S64x128 : Shape := ⟨2, ![64, 128]⟩
abbrev S256x128 : Shape := ⟨2, ![256, 128]⟩
abbrev S1x128 : Shape := ⟨2, ![1, 128]⟩
abbrev S_ : Shape := ⟨0, ![]⟩
abbrev S32x128 : Shape := ⟨2, ![32, 128]⟩
abbrev S512x128 : Shape := ⟨2, ![512, 128]⟩
abbrev S1x256x128 : Shape := ⟨3, ![1, 256, 128]⟩
abbrev S4x1x128 : Shape := ⟨3, ![4, 1, 128]⟩
abbrev S4x256x128 : Shape := ⟨3, ![4, 256, 128]⟩
abbrev S4x256x256 : Shape := ⟨3, ![4, 256, 256]⟩
abbrev S128x256 : Shape := ⟨2, ![128, 256]⟩
abbrev S512x256 : Shape := ⟨2, ![512, 256]⟩
abbrev S4x256x1x256 : Shape := ⟨4, ![4, 256, 1, 256]⟩
abbrev S1x1x512x256 : Shape := ⟨4, ![1, 1, 512, 256]⟩
abbrev S4x256x512x256 : Shape := ⟨4, ![4, 256, 512, 256]⟩
abbrev S1x1x1x256 : Shape := ⟨4, ![1, 1, 1, 256]⟩
abbrev S4x256x512x1 : Shape := ⟨4, ![4, 256, 512, 1]⟩
abbrev S1x1x1x1 : Shape := ⟨4, ![1, 1, 1, 1]⟩
abbrev S4x256x512 : Shape := ⟨3, ![4, 256, 512]⟩

abbrev nBuf : Space → Nat
  | .hbm => 87
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S512x32, .f32⟩
  | .hbm, ⟨2, _⟩ => ⟨S128x64, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x32, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S4x128, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S64x128, .f32⟩
  | .hbm, ⟨20, _⟩ => ⟨S256x128, .f32⟩
  | .hbm, ⟨21, _⟩ => ⟨S1x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S128x128, .f32⟩
  | .hbm, ⟨28, _⟩ => ⟨S256x128, .f32⟩
  | .hbm, ⟨29, _⟩ => ⟨S1x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S128x128, .f32⟩
  | .hbm, ⟨36, _⟩ => ⟨S256x128, .f32⟩
  | .hbm, ⟨37, _⟩ => ⟨S1x128, .f32⟩
  | .hbm, ⟨38, _⟩ => ⟨S256x128, .f32⟩
  | .hbm, ⟨39, _⟩ => ⟨S256x128, .f32⟩
  | .hbm, ⟨40, _⟩ => ⟨S32x128, .f32⟩
  | .hbm, ⟨41, _⟩ => ⟨S512x128, .f32⟩
  | .hbm, ⟨42, _⟩ => ⟨S1x128, .f32⟩
  | .hbm, ⟨43, _⟩ => ⟨S512x128, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S128x128, .f32⟩
  | .hbm, ⟨49, _⟩ => ⟨S512x128, .f32⟩
  | .hbm, ⟨50, _⟩ => ⟨S1x128, .f32⟩
  | .hbm, ⟨51, _⟩ => ⟨S512x128, .f32⟩
  | .hbm, ⟨52, _⟩ => ⟨S512x128, .f32⟩
  | .hbm, ⟨53, _⟩ => ⟨S_, .f32⟩
  | .hbm, ⟨54, _⟩ => ⟨S512x128, .f32⟩
  | .hbm, ⟨55, _⟩ => ⟨S512x128, .f32⟩
  | .hbm, ⟨56, _⟩ => ⟨S128x128, .f32⟩
  | .hbm, ⟨57, _⟩ => ⟨S512x128, .f32⟩
  | .hbm, ⟨58, _⟩ => ⟨S1x128, .f32⟩
  | .hbm, ⟨59, _⟩ => ⟨S512x128, .f32⟩
  | .hbm, ⟨60, _⟩ => ⟨S512x128, .f32⟩
  | .hbm, ⟨61, _⟩ => ⟨S1x256x128, .f32⟩
  | .hbm, ⟨62, _⟩ => ⟨S4x1x128, .f32⟩
  | .hbm, ⟨63, _⟩ => ⟨S4x256x128, .f32⟩
  | .hbm, ⟨64, _⟩ => ⟨S4x256x128, .f32⟩
  | .hbm, ⟨65, _⟩ => ⟨S4x256x128, .f32⟩
  | .hbm, ⟨66, _⟩ => ⟨S256x128, .f32⟩
  | .hbm, ⟨67, _⟩ => ⟨S256x128, .f32⟩
  | .hbm, ⟨68, _⟩ => ⟨S4x256x256, .f32⟩
  | .hbm, ⟨69, _⟩ => ⟨S128x256, .f32⟩
  | .hbm, ⟨70, _⟩ => ⟨S512x256, .f32⟩
  | .hbm, ⟨71, _⟩ => ⟨S4x256x1x256, .f32⟩
  | .hbm, ⟨72, _⟩ => ⟨S1x1x512x256, .f32⟩
  | .hbm, ⟨73, _⟩ => ⟨S4x256x512x256, .f32⟩
  | .hbm, ⟨74, _⟩ => ⟨S4x256x512x256, .f32⟩
  | .hbm, ⟨75, _⟩ => ⟨S4x256x512x256, .f32⟩
  | .hbm, ⟨76, _⟩ => ⟨S1x1x1x256, .f32⟩
  | .hbm, ⟨77, _⟩ => ⟨S4x256x512x256, .f32⟩
  | .hbm, ⟨78, _⟩ => ⟨S4x256x512x256, .f32⟩
  | .hbm, ⟨79, _⟩ => ⟨S_, .f32⟩
  | .hbm, ⟨80, _⟩ => ⟨S4x256x512x256, .f32⟩
  | .hbm, ⟨81, _⟩ => ⟨S4x256x512x256, .f32⟩
  | .hbm, ⟨82, _⟩ => ⟨S4x256x512x1, .f32⟩
  | .hbm, ⟨83, _⟩ => ⟨S1x1x1x1, .f32⟩
  | .hbm, ⟨84, _⟩ => ⟨S4x256x512x1, .f32⟩
  | .hbm, ⟨85, _⟩ => ⟨S4x256x512x1, .f32⟩
  | .hbm, ⟨86, _⟩ => ⟨S4x256x512, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_cst : Ref sig .tc := ⟨.hbm, 32, rfl⟩
abbrev main_call1_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call2_cst : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call3_cst : Ref sig .tc := ⟨.hbm, 53, rfl⟩
abbrev main_call3_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call4_cst : Ref sig .tc := ⟨.hbm, 79, rfl⟩
abbrev main_call4_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  transposes_S128x128_S128x128_1_0 : S128x128.Transposes [1, 0] S128x128
  transposes_S128x32_S32x128_1_0 : S128x32.Transposes [1, 0] S32x128
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S256x128_S1x256x128_1_2 : S256x128.BroadcastsInDim S1x256x128 (![1, 2] : Fin 2 → Fin S1x256x128.rank)
  bcast_S4x128_S4x1x128_0_2 : S4x128.BroadcastsInDim S4x1x128 (![0, 2] : Fin 2 → Fin S4x1x128.rank)
  bcast_S1x256x128_S4x256x128_0_1_2 : S1x256x128.BroadcastsInDim S4x256x128 (![0, 1, 2] : Fin 3 → Fin S4x256x128.rank)
  bcast_S4x1x128_S4x256x128_0_1_2 : S4x1x128.BroadcastsInDim S4x256x128 (![0, 1, 2] : Fin 3 → Fin S4x256x128.rank)
  slices_S256x256_S256x128_0_0 : S256x256.Slices ![0, 0] S256x128
  slices_S256x256_S256x128_0_128 : S256x256.Slices ![0, 128] S256x128
  transposes_S256x128_S128x256_1_0 : S256x128.Transposes [1, 0] S128x256
  bcast_S4x256x256_S4x256x1x256_0_1_3 : S4x256x256.BroadcastsInDim S4x256x1x256 (![0, 1, 3] : Fin 3 → Fin S4x256x1x256.rank)
  bcast_S512x256_S1x1x512x256_2_3 : S512x256.BroadcastsInDim S1x1x512x256 (![2, 3] : Fin 2 → Fin S1x1x512x256.rank)
  bcast_S4x256x1x256_S4x256x512x256_0_1_2_3 : S4x256x1x256.BroadcastsInDim S4x256x512x256 (![0, 1, 2, 3] : Fin 4 → Fin S4x256x512x256.rank)
  bcast_S1x1x512x256_S4x256x512x256_0_1_2_3 : S1x1x512x256.BroadcastsInDim S4x256x512x256 (![0, 1, 2, 3] : Fin 4 → Fin S4x256x512x256.rank)
  bcast_S256_S1x1x1x256_3 : S256.BroadcastsInDim S1x1x1x256 (![3] : Fin 1 → Fin S1x1x1x256.rank)
  bcast_S1x1x1x256_S4x256x512x256_0_1_2_3 : S1x1x1x256.BroadcastsInDim S4x256x512x256 (![0, 1, 2, 3] : Fin 4 → Fin S4x256x512x256.rank)
  bcast_S_S4x256x512x256 : S_.BroadcastsInDim S4x256x512x256 (![] : Fin 0 → Fin S4x256x512x256.rank)
  bcast_S1_S1x1x1x1_3 : S1.BroadcastsInDim S1x1x1x1 (![3] : Fin 1 → Fin S1x1x1x1.rank)
  bcast_S1x1x1x1_S4x256x512x1_0_1_2_3 : S1x1x1x1.BroadcastsInDim S4x256x512x1 (![0, 1, 2, 3] : Fin 4 → Fin S4x256x512x1.rank)
  shapeCasts_S4x256x512x1_S4x256x512 : S4x256x512x1.ShapeCasts S4x256x512
  dot_S256x64_S64x128_S256x128_1_0_0_1_n_n_wf : DotDims.WF S256x64 S64x128 S256x128 [1] [0] [0] [1] [] []
  dot_S256x128_S128x128_S256x128_1_0_0_1_n_n_wf : DotDims.WF S256x128 S128x128 S256x128 [1] [0] [0] [1] [] []
  dot_S512x32_S32x128_S512x128_1_0_0_1_n_n_wf : DotDims.WF S512x32 S32x128 S512x128 [1] [0] [0] [1] [] []
  dot_S512x128_S128x128_S512x128_1_0_0_1_n_n_wf : DotDims.WF S512x128 S128x128 S512x128 [1] [0] [0] [1] [] []
  dot_S4x256x128_S256x128_S4x256x256_2_1_01_0_n_n_wf : DotDims.WF S4x256x128 S256x128 S4x256x256 [2] [1] [0, 1] [0] [] []
  dot_S512x128_S128x256_S512x256_1_0_0_1_n_n_wf : DotDims.WF S512x128 S128x256 S512x256 [1] [0] [0] [1] [] []
  dot_S4x256x512x256_S1x256_S4x256x512x1_3_1_012_0_n_n_wf : DotDims.WF S4x256x512x256 S1x256 S4x256x512x1 [3] [1] [0, 1, 2] [0] [] []

variable [Facts₀]

def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S4x256x128_S256x128_S4x256x256_2_1_01_0_n_n : DotDims S4x256x128 S256x128 S4x256x256 where
  lhsContracting := [2]
  rhsContracting := [1]
  lhsNonContracting := [0, 1]
  rhsNonContracting := [0]
  lhsBatch := []
  rhsBatch := []
  wf := dot_S4x256x128_S256x128_S4x256x256_2_1_01_0_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S4x256x512x256_S1x256_S4x256x512x1_3_1_012_0_n_n : DotDims S4x256x512x256 S1x256 S4x256x512x1 where
  lhsContracting := [3]
  rhsContracting := [1]
  lhsNonContracting := [0, 1, 2]
  rhsNonContracting := [0]
  lhsBatch := []
  rhsBatch := []
  wf := dot_S4x256x512x256_S1x256_S4x256x512x1_3_1_012_0_n_n_wf

class Facts : Prop extends Facts₀ where

variable [Facts]
-- ==== Proof.BodyValue.lean ====
/-
  The kernel body's stored value, read at one element, on the extended reals.

  At a grid point the body loads a block `U` of 32 rows of the projected rows (`[32, 256]`), a block `T` of 128 rows of the
  projected columns (`[128, 256]`), one head's bias row `B` (`[1, 1, 256]`), the output weights `W` (`[1, 256]`) and the output
  bias `b` (`[1, 1]`), and stores the `[1, 32, 128]` block whose element `(·, r, s)` is

      (∑ k < 256, max ((U r k + B k) + T s k) 0 · W k) + b.

  Everything between the loads and the store is layout (shape casts that add or drop unit axes, broadcasts along the added
  axes) around three pointwise operations and one sum over the last axis; each layout step is read at an index below, and
  the sum over the last axis is the library's `Fin`-indexed sum. The zero of the maximum is kept as the word `0x00000000`
  read at the ideal instance: the same word stands on the reference's side, and it is never evaluated.
-/
import proofs.«120223_j27444841021902_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The layout steps, each read at an index -/

section Layout
variable {α : Type}

/-- A `[32, 256]` array given a unit middle axis and repeated along it: at `(r, s, k)` it is the array at `(r, k)`. -/
theorem rows_over_columns (X : S32x256.Idx → α) (h1 : S32x256.ShapeCasts S32x1x256) (h2 : S32x1x256.Broadcasts S32x128x256)
    (r : Fin 32) (s : Fin 128) (k : Fin 256) :
    broadcastTo S32x128x256 (shapeCast S32x1x256 X h1) h2 (ix3 r s k) = X (ix2 r k) := by
  refine (broadcastTo_apply _ h2 (ix3 r s k) (ix3 r (0 : Fin 1) k) fun a => ?_).trans ?_
  · match a with
    | ⟨0, _⟩ => show r.val = if (32 : Nat) = 1 then 0 else r.val; rw [if_neg (by decide)]
    | ⟨1, _⟩ => show 0 = if (1 : Nat) = 1 then 0 else s.val; rw [if_pos rfl]
    | ⟨2, _⟩ => show k.val = if (256 : Nat) = 1 then 0 else k.val; rw [if_neg (by decide)]
  · exact shapeCast_apply X h1 _ _ (by
      rw [Shape.rowMajor_val_two, Shape.rowMajor_val_three]
      show r.val * 256 + k.val = (r.val * 1 + 0) * 256 + k.val
      omega)

/-- A `[128, 256]` array given a unit leading axis and repeated along it: at `(r, s, k)` it is the array at `(s, k)`. -/
theorem columns_over_rows (X : S128x256.Idx → α) (h1 : S128x256.ShapeCasts S1x128x256) (h2 : S1x128x256.Broadcasts S32x128x256)
    (r : Fin 32) (s : Fin 128) (k : Fin 256) :
    broadcastTo S32x128x256 (shapeCast S1x128x256 X h1) h2 (ix3 r s k) = X (ix2 s k) := by
  refine (broadcastTo_apply _ h2 (ix3 r s k) (ix3 (0 : Fin 1) s k) fun a => ?_).trans ?_
  · match a with
    | ⟨0, _⟩ => show 0 = if (1 : Nat) = 1 then 0 else r.val; rw [if_pos rfl]
    | ⟨1, _⟩ => show s.val = if (128 : Nat) = 1 then 0 else s.val; rw [if_neg (by decide)]
    | ⟨2, _⟩ => show k.val = if (256 : Nat) = 1 then 0 else k.val; rw [if_neg (by decide)]
  · exact shapeCast_ab_1ab_apply X h1 (0 : Fin 1) s k

/-- A `[1, 256]` row given a second unit axis and repeated along both: at `(r, s, k)` it is the row at `k`. -/
theorem row_over_both (X : S1x256.Idx → α) (h1 : S1x256.ShapeCasts S1x1x256) (h2 : S1x1x256.Broadcasts S32x128x256)
    (r : Fin 32) (s : Fin 128) (k : Fin 256) :
    broadcastTo S32x128x256 (shapeCast S1x1x256 X h1) h2 (ix3 r s k) = X (ix2 (0 : Fin 1) k) := by
  refine (broadcastTo_apply _ h2 (ix3 r s k) (ix3 (0 : Fin 1) (0 : Fin 1) k) fun a => ?_).trans ?_
  · match a with
    | ⟨0, _⟩ => show 0 = if (1 : Nat) = 1 then 0 else r.val; rw [if_pos rfl]
    | ⟨1, _⟩ => show 0 = if (1 : Nat) = 1 then 0 else s.val; rw [if_pos rfl]
    | ⟨2, _⟩ => show k.val = if (256 : Nat) = 1 then 0 else k.val; rw [if_neg (by decide)]
  · exact shapeCast_ab_1ab_apply X h1 (0 : Fin 1) (0 : Fin 1) k

/-- A `[1, 1, 256]` row with its leading unit axis dropped and repeated over 32 rows: at `(r, k)` it is the row at `k`. -/
theorem bias_over_rows (X : S1x1x256.Idx → α) (h1 : S1x1x256.ShapeCasts S1x256) (h2 : S1x256.Broadcasts S32x256)
    (r : Fin 32) (k : Fin 256) :
    broadcastTo S32x256 (shapeCast S1x256 X h1) h2 (ix2 r k) = X (ix3 (0 : Fin 1) (0 : Fin 1) k) :=
  (broadcastTo_1b_ab_apply _ h2 r k).trans (shapeCast_1ab_ab_apply X h1 (0 : Fin 1) k)

/-- A `[1, 1]` array repeated over a `[32, 128]` block is its one element everywhere. -/
theorem one_over_block (X : S1x1.Idx → α) (h : S1x1.Broadcasts S32x128) (r : Fin 32) (s : Fin 128) :
    broadcastTo S32x128 X h (ix2 r s) = X (ix2 (0 : Fin 1) (0 : Fin 1)) := by
  refine broadcastTo_apply X h (ix2 r s) (ix2 (0 : Fin 1) (0 : Fin 1)) fun a => ?_
  match a with
  | ⟨0, _⟩ => show 0 = if (1 : Nat) = 1 then 0 else r.val; rw [if_pos rfl]
  | ⟨1, _⟩ => show 0 = if (1 : Nat) = 1 then 0 else s.val; rw [if_pos rfl]

end Layout

/-! ## The stored value at an element -/

/-- The body's one stored value at element `(z, r, s)` of its `[1, 32, 128]` block, from its five loads. -/
theorem stored_apply (U : Vec Ideal S32x256 .f32) (T : Vec Ideal S128x256 .f32) (B : Vec Ideal S1x1x256 .f32)
    (W : Vec Ideal S1x256 .f32) (b : Vec Ideal S1x1 .f32) (z : Fin 1) (r : Fin 32) (s : Fin 128) :
    k0_pay1 (F := Ideal) U T B W b (ix3 z r s)
      = (∑ k : Fin 256, max ((U (ix2 r k) + B (ix3 (0 : Fin 1) (0 : Fin 1) k)) + T (ix2 s k)) (Ideal.ofBits .f32 0x00000000#32)
            * W (ix2 (0 : Fin 1) k))
          + b (ix2 (0 : Fin 1) (0 : Fin 1)) := by
  unfold k0_pay1
  dsimp only
  refine (shapeCast_ab_1ab_apply _ _ z r s).trans ?_
  refine (addf_apply _ _ _).trans (congrArg₂ (· + ·) ?_ ?_)
  · refine (Ideal.multiReduction_add_single _ _ _ _ _ (ix2 r s)).trans ?_
    refine Finset.sum_congr rfl fun (k : Fin 256) _ => ?_
    have hl : reduces_S32x128x256_S32x128.lift (ix2 r s) k = ix3 r s k :=
      funext fun a => Fin.ext (by match a with | ⟨0, _⟩ => rfl | ⟨1, _⟩ => rfl | ⟨2, _⟩ => rfl)
    rw [hl]
    simp only [mulf_apply, maximumf_apply, addf_apply, broadcast_apply, shapeCast_self, rows_over_columns, columns_over_rows,
      row_over_both, bias_over_rows]
    rfl
  · simp only [shapeCast_self, one_over_block]

end Cert.KernelIdeal.Body

end
-- ==== Proof.KernelArray.lean ====
/-
  From what each grid point writes to the whole result array.

  The region runs on the grid `4 × 8 × 4` (heads × row blocks × column blocks). At the point `(h, ui, ti)` it reads rows
  `32·ui … 32·ui + 31` of the projected rows, rows `128·ti … 128·ti + 127` of the projected columns, head `h`'s bias row, the
  whole output weights and output bias, and writes the block `(h, 32·ui …, 128·ti …)` of the `[4, 256, 512]` result. So the
  block a point writes is the restriction to that block of ONE function of the five region arrays,

      scoreArray rows cols heads w b (h, u, t) = (∑ k, max ((rows u k + heads h 0 k) + cols t k) 0 · w 0 k) + b 0 0,

  the 128 blocks tile the result, and the result after the run is that function everywhere. The relations between the
  printed index maps (which block of which operand a point reads) are decided once over the 128 points.
-/
import proofs.«120223_j27444841021902_1_alg».proof.Proof.Gen.KernelIdeal.Frame
import proofs.«120223_j27444841021902_1_alg».proof.Proof.BodyValue
import Idealize.ShloMosaic.Lib.Pipeline.Value
import Idealize.ShloMosaic.Lib.ValueIdx

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The result as one function of the region's arrays -/

/-- The head, row and column of a result index, as coordinates of the operands' axes. -/
abbrev headOf (i : S4x256x512.Idx) : Fin 4 := ⟨(i 0).val, (i 0).isLt⟩
abbrev rowOf (i : S4x256x512.Idx) : Fin 256 := ⟨(i 1).val, (i 1).isLt⟩
abbrev colOf (i : S4x256x512.Idx) : Fin 512 := ⟨(i 2).val, (i 2).isLt⟩

/-- The fused score from the five arrays the region is launched on. -/
def scoreArray (rows : S256x256.Idx → Elt Ideal .f32) (cols : S512x256.Idx → Elt Ideal .f32) (heads : S4x1x256.Idx → Elt Ideal .f32)
    (w : S1x256.Idx → Elt Ideal .f32) (b : S1x1.Idx → Elt Ideal .f32) : S4x256x512.Idx → Elt Ideal .f32 := fun i =>
  (∑ k : Fin 256, max ((rows (ix2 (rowOf i) k) + heads (ix3 (headOf i) (0 : Fin 1) k)) + cols (ix2 (colOf i) k)) (Ideal.ofBits .f32 0x00000000#32)
        * w (ix2 (0 : Fin 1) k))
    + b (ix2 (0 : Fin 1) (0 : Fin 1))

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The index maps over the grid -/

/-- Which block of each operand a point reads, against the block of the result it writes: the rows' block follows the
    result's second axis, the columns' its third, the head's its first; every other block index is zero. -/
theorem maps : ∀ t : Fin cfg0.N,
    win0_0.index t (0 : Fin 2) = win0_5.index t (1 : Fin 3) ∧ win0_0.index t (1 : Fin 2) = 0
    ∧ win0_1.index t (0 : Fin 2) = win0_5.index t (2 : Fin 3) ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block of the result is some point's. -/
theorem blocks_onto : ∀ (q0 : Fin 4) (q1 : Fin 8) (q2 : Fin 4), ∃ t : Fin cfg0.N, win0_5.index t = ![q0.val, q1.val, q2.val] :=
  (by decide +kernel : ∀ (q0 : Fin 4) (q1 : Fin 8) (q2 : Fin 4), ∃ t : Fin grid0.N, win0_5.index t = ![q0.val, q1.val, q2.val])

/-! ## The operands' blocks, read where the result's block says -/

/-- Row `r` of the rows' block at a point is the row of the array under the result's element `(z, r, s)`. -/
theorem rows_block (c : Dev nD) (t : Fin cfg0.N) (z : Fin 1) (r : Fin 32) (s : Fin 128) (k : Fin 256) :
    iblk m c 0 t (ix2 r k) = V m c main_v37 (ix2 (rowOf (((cfg0.win 5).blk t).view.emb (ix3 z r s))) k) := by
  obtain ⟨e00, e01, -⟩ := maps t
  show V m c main_v37 (((cfg0.win 0).blk t).view.emb (ix2 r k)) = V m c main_v37 _
  refine congrArg (V m c main_v37) (funext fun a => Fin.ext ?_)
  match a with
  | ⟨0, _⟩ => show win0_0.index t (0 : Fin 2) * 32 + 1 * r.val = win0_5.index t (1 : Fin 3) * 32 + 1 * r.val; omega
  | ⟨1, _⟩ => show win0_0.index t (1 : Fin 2) * 256 + 1 * k.val = k.val; omega

/-- Row `s` of the columns' block likewise. -/
theorem cols_block (c : Dev nD) (t : Fin cfg0.N) (z : Fin 1) (r : Fin 32) (s : Fin 128) (k : Fin 256) :
    iblk m c 1 t (ix2 s k) = V m c main_v41 (ix2 (colOf (((cfg0.win 5).blk t).view.emb (ix3 z r s))) k) := by
  obtain ⟨-, -, e10, e11, -⟩ := maps t
  show V m c main_v41 (((cfg0.win 1).blk t).view.emb (ix2 s k)) = V m c main_v41 _
  refine congrArg (V m c main_v41) (funext fun a => Fin.ext ?_)
  match a with
  | ⟨0, _⟩ => show win0_1.index t (0 : Fin 2) * 128 + 1 * s.val = win0_5.index t (2 : Fin 3) * 128 + 1 * s.val; omega
  | ⟨1, _⟩ => show win0_1.index t (1 : Fin 2) * 256 + 1 * k.val = k.val; omega

/-- The head's block is the head's row of the array. -/
theorem heads_block (c : Dev nD) (t : Fin cfg0.N) (z : Fin 1) (r : Fin 32) (s : Fin 128) (k : Fin 256) :
    iblk m c 2 t (ix3 (0 : Fin 1) (0 : Fin 1) k)
      = V m c main_v45 (ix3 (headOf (((cfg0.win 5).blk t).view.emb (ix3 z r s))) (0 : Fin 1) k) := by
  obtain ⟨-, -, -, -, e20, e21, e22, -⟩ := maps t
  have hz : z.val = 0 := by omega
  show V m c main_v45 (((cfg0.win 2).blk t).view.emb (ix3 (0 : Fin 1) (0 : Fin 1) k)) = V m c main_v45 _
  refine congrArg (V m c main_v45) (funext fun a => Fin.ext ?_)
  match a with
  | ⟨0, _⟩ => show win0_2.index t (0 : Fin 3) * 1 + 1 * 0 = win0_5.index t (0 : Fin 3) * 1 + 1 * z.val; omega
  | ⟨1, _⟩ => show win0_2.index t (1 : Fin 3) * 1 + 1 * 0 = 0; omega
  | ⟨2, _⟩ => show win0_2.index t (2 : Fin 3) * 256 + 1 * k.val = k.val; omega

/-- The output weights' block is the whole array. -/
theorem weights_block (c : Dev nD) (t : Fin cfg0.N) (k : Fin 256) :
    iblk m c 3 t (ix2 (0 : Fin 1) k) = V m c main_arg17 (ix2 (0 : Fin 1) k) := by
  obtain ⟨-, -, -, -, -, -, -, e30, e31, -⟩ := maps t
  show V m c main_arg17 (((cfg0.win 3).blk t).view.emb (ix2 (0 : Fin 1) k)) = V m c main_arg17 _
  refine congrArg (V m c main_arg17) (funext fun a => Fin.ext ?_)
  match a with
  | ⟨0, _⟩ => show win0_3.index t (0 : Fin 2) * 1 + 1 * 0 = 0; omega
  | ⟨1, _⟩ => show win0_3.index t (1 : Fin 2) * 256 + 1 * k.val = k.val; omega

/-- The output bias' block is the whole array. -/
theorem bias_block (c : Dev nD) (t : Fin cfg0.N) :
    iblk m c 4 t (ix2 (0 : Fin 1) (0 : Fin 1)) = V m c main_v46 (ix2 (0 : Fin 1) (0 : Fin 1)) := by
  obtain ⟨-, -, -, -, -, -, -, -, -, e40, e41⟩ := maps t
  show V m c main_v46 (((cfg0.win 4).blk t).view.emb (ix2 (0 : Fin 1) (0 : Fin 1))) = V m c main_v46 _
  refine congrArg (V m c main_v46) (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## What a point writes back -/

/-- What point `t` writes back is block `t` of `scoreArray` of the arrays as the region finds them. -/
theorem written_eq (c : Dev nD) (t : Fin cfg0.N) :
    (dats m 0 c).flushed 5 t
      = ((cfg0.win 5).blk t).view.read (Elt Ideal) (scoreArray (V m c main_v37) (V m c main_v41) (V m c main_v45) (V m c main_arg17) (V m c main_v46)) := by
  show (cfg0.win 5).cut (grid0.coords t) ((dats m 0 c).after 5 t) = _
  rw [after0_5]
  unfold out0_5
  rw [View.canon_unit_zero zeros3]
  simp only [View.ld_unit_zero (S := S32x256) zeros2, View.ld_unit_zero (S := S128x256) zeros2, View.ld_unit_zero (S := S1x1x256) zeros3,
    View.ld_unit_zero (S := S1x256) zeros2, View.ld_unit_zero (S := S1x1) zeros2]
  funext y
  obtain ⟨z, r, s, rfl⟩ : ∃ (z : Fin 1) (r : Fin 32) (s : Fin 128), y = ix3 z r s :=
    ⟨y 0, y 1, y 2, eq_ix3 (n0 := 1) (n1 := 32) (n2 := 128) y⟩
  show k0_pay1 (iblk m c 0 t) (iblk m c 1 t) (iblk m c 2 t) (iblk m c 3 t) (iblk m c 4 t) (ix3 z r s)
    = scoreArray (V m c main_v37) (V m c main_v41) (V m c main_v45) (V m c main_arg17) (V m c main_v46) (((cfg0.win 5).blk t).view.emb (ix3 z r s))
  refine (Body.stored_apply _ _ _ _ _ z r s).trans ?_
  unfold scoreArray
  refine congrArg₂ (· + ·) (Finset.sum_congr rfl fun k _ => ?_) (bias_block m c t)
  rw [rows_block m c t z r s k, cols_block m c t z r s k, heads_block m c t z r s k, weights_block m c t k]

/-! ## The blocks tile the result -/

/-- An index of the result is in point `t`'s block iff each coordinate is in the block's range on its axis. -/
theorem mem_block (t : Fin cfg0.N) (i : S4x256x512.Idx) :
    i ∈ ((cfg0.win 5).blk t).view.set ↔ ∀ a : Fin 3, win0_5.index t a * S1x32x128.size a ≤ (i a).val
      ∧ (i a).val < win0_5.index t a * S1x32x128.size a + S1x32x128.size a := by
  show i ∈ ((View.whole main_v47).slice (win0_5.rect t)).set ↔ _
  rw [View.set_slice_whole, Rect.mem_set_unit]
  exact Iff.rfl

/-- Every index of the result is in the block of the point `(head, row / 32, column / 128)`, which writes back. -/
theorem covered (i : S4x256x512.Idx) : ∃ t : Fin cfg0.N, (cfg0.win 5).flush t = true ∧ i ∈ ((cfg0.win 5).blk t).view.set := by
  have hi0 : (i 0).val < 4 := (i 0).isLt
  have hi1 : (i 1).val < 256 := (i 1).isLt
  have hi2 : (i 2).val < 512 := (i 2).isLt
  obtain ⟨t, ht⟩ := blocks_onto ⟨(i 0).val, by omega⟩ ⟨(i 1).val / 32, by omega⟩ ⟨(i 2).val / 128, by omega⟩
  have q0 : win0_5.index t (0 : Fin 3) = (i 0).val := congrFun ht 0
  have q1 : win0_5.index t (1 : Fin 3) = (i 1).val / 32 := congrFun ht 1
  have q2 : win0_5.index t (2 : Fin 3) = (i 2).val / 128 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 32 ≤ (i 1).val ∧ (i 1).val < win0_5.index t (1 : Fin 3) * 32 + 32; omega
  | ⟨2, _⟩ => show win0_5.index t (2 : Fin 3) * 128 ≤ (i 2).val ∧ (i 2).val < win0_5.index t (2 : Fin 3) * 128 + 128; omega

/-- The result array after the run. -/
theorem result_eq (c : Dev nD) :
    (dats m 0 c).arrAt 5 cfg0.N = scoreArray (V m c main_v37) (V m c main_v41) (V m c main_v45) (V m c main_arg17) (V m c main_v46) :=
  (dats m 0 c).arrAt_eq_of_cover 5 _ (fun t _ => written_eq m c t) covered

/-! ## The run -/

/-- Every weakly fair execution of the kernel's program ends with the result at `scoreArray` of the region's arrays and the
    arguments as launched. -/
theorem run : θ_run defs (onTc (τ := τ) (main (F := Ideal))) ⟨m, fun _ => 0, ρ⟩ fun r => ∀ c : Dev nD,
      r.2.mem ((c : Thread nD τ).loc main_v47) = scoreArray (V m c main_v37) (V m c main_v41) (V m c main_v45) (V m c main_arg17) (V m c main_v46)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 5).trans (result_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).1 3).trans (((dats m 0 c).arrAt_in 3 rfl _).trans ((A_eq m c 3).trans (V_main_arg17 m c))),
      ((h c).2 main_arg18 (Pipeline.mem_restRefs_of main_arg18 (by decide) (by decide))).trans (V_main_arg18 m c)⟩)
    (run_main m ρ)

end Cert.KernelIdeal.Result

end
-- ==== Proof.LibERealDistrib.lean ====
/-
  Distributivity on the extended reals, where it holds.

  On `EReal` the product does not distribute over the sum in general: `(⊤ + ⊥) * w` and `⊤ * w + ⊥ * w` differ, and so do
  `(1 + (-1)) * ⊤` and `1 * ⊤ + (-1) * ⊤`. It does distribute as soon as the second summand `q` and the factor `w` are
  real, whatever the first summand `a` is: for `a` real everything is real; for `a = ±∞` the sum `a + q` is `a`, and
  `a * w` is `±∞` or `0` according to the sign of `w`, which absorbs the real `q * w` or is joined by `q * 0 = 0`.
  `add_mul_of_real` is that law, `sum_add_mul_of_real` its sum over a finite index set: a contraction against a sum of
  two operands splits into the two contractions when one operand and the weights are real.
-/
import Mathlib.Data.EReal.Operations
import Mathlib.Algebra.BigOperators.Group.Finset.Basic

namespace Cert.Lib

open scoped BigOperators

/-- `(a + q) * w = a * w + q * w` on the extended reals, for real `q` and `w` and ANY `a`. -/
theorem add_mul_coe (a : EReal) (q w : ℝ) : (a + (q : EReal)) * (w : EReal) = a * (w : EReal) + (q : EReal) * (w : EReal) := by
  induction a using EReal.rec with
  | bot =>
    rw [EReal.bot_add]
    rcases lt_trichotomy w 0 with hw | hw | hw
    · rw [EReal.bot_mul_coe_of_neg hw, ← EReal.coe_mul, EReal.top_add_coe]
    · subst hw; simp
    · rw [EReal.bot_mul_coe_of_pos hw, EReal.bot_add]
  | top =>
    rw [EReal.top_add_coe]
    rcases lt_trichotomy w 0 with hw | hw | hw
    · rw [EReal.top_mul_coe_of_neg hw, EReal.bot_add]
    · subst hw; simp
    · rw [EReal.top_mul_coe_of_pos hw, ← EReal.coe_mul, EReal.top_add_coe]
  | coe r =>
    rw [← EReal.coe_add, ← EReal.coe_mul, ← EReal.coe_mul, ← EReal.coe_mul, ← EReal.coe_add, add_mul]

/-- The same with `q` and `w` extended reals known to be neither infinity. -/
theorem add_mul_of_real (a q w : EReal) (hq : q ≠ ⊤ ∧ q ≠ ⊥) (hw : w ≠ ⊤ ∧ w ≠ ⊥) : (a + q) * w = a * w + q * w := by
  lift q to ℝ using hq
  lift w to ℝ using hw
  exact add_mul_coe a q w

/-- A contraction of a sum of two operands against real weights, the second operand real: the two contractions added. -/
theorem sum_add_mul_of_real {ι : Type*} (s : Finset ι) (a q w : ι → EReal)
    (hq : ∀ e, q e ≠ ⊤ ∧ q e ≠ ⊥) (hw : ∀ e, w e ≠ ⊤ ∧ w e ≠ ⊥) :
    ∑ e ∈ s, (a e + q e) * w e = ∑ e ∈ s, a e * w e + ∑ e ∈ s, q e * w e := by
  rw [← Finset.sum_add_distrib]
  exact Finset.sum_congr rfl fun e _ => add_mul_of_real (a e) (q e) (w e) (hq e) (hw e)

end Cert.Lib
-- ==== Proof.Spec.lean ====
/-
  The two arrangements of the fused score, and the law that joins them.

  With `ue` the encoded rows (`[256, 128]`), `te` the encoded columns (`[512, 128]`), `hq` the head queries (`[4, 128]`), `fw0` the
  first layer's weights (`[256, 256]`: its left half multiplies the row side, its right half the column side), `fb0` its bias,
  `fw1` / `fb1` the output layer, and `z` the threshold of the rectifier, the score of head `h`, row `u`, column `t` is

      ∑ k, max (pre h u t k) z · fw1 k + fb1

  where the kernel's program projects rows and heads SEPARATELY and adds the bias to the head's projection first,

      pre = (∑ e, ue u e · fw0 k e) + ((∑ e, hq h e · fw0 k e) + fb0 k) + ∑ e, te t e · fw0 k (128 + e),

  while the reference adds the head query to the row BEFORE projecting and the bias last,

      pre = (∑ e, (ue u e + hq h e) · fw0 k e) + (∑ e, te t e · fw0 k (128 + e)) + fb0 k.

  The two agree when the head queries and the weights are real numbers: the contraction of a sum splits
  (`Cert.Lib.sum_add_mul_of_real`: the product distributes over `a + q` for real `q` and a real factor, whatever `a`), and the
  rest is the order and grouping of a sum, which holds on all extended reals. Nothing is asked of `ue`, `te`, the biases or
  the output layer.
-/
import Idealize.ShloMosaic.Lib.ValueIdx
import proofs.«120223_j27444841021902_1_alg».proof.Proof.LibERealDistrib

noncomputable section

namespace Cert.Spec

open Idealize.ShloMosaic Idealize.ShloMosaic.ValueIdx
open scoped BigOperators

/-- Column `e` of the weights' left half. -/
abbrev lo (e : Fin 128) : Fin 256 := ⟨e.val, by have := e.isLt; omega⟩
/-- Column `e` of the weights' right half. -/
abbrev hi (e : Fin 128) : Fin 256 := ⟨128 + e.val, by have := e.isLt; omega⟩

variable (ue : (⟨2, ![256, 128]⟩ : Shape).Idx → EReal) (te : (⟨2, ![512, 128]⟩ : Shape).Idx → EReal)
  (hq : (⟨2, ![4, 128]⟩ : Shape).Idx → EReal) (fw0 : (⟨2, ![256, 256]⟩ : Shape).Idx → EReal)
  (fb0 : (⟨1, ![256]⟩ : Shape).Idx → EReal) (fw1 : (⟨2, ![1, 256]⟩ : Shape).Idx → EReal)
  (fb1 : (⟨1, ![1]⟩ : Shape).Idx → EReal) (z : EReal)

/-- The score as the kernel's program arranges it: rows, heads (with the bias) and columns projected separately. -/
def kernelForm (h : Fin 4) (u : Fin 256) (t : Fin 512) : EReal :=
  (∑ k : Fin 256,
      max (((∑ e : Fin 128, ue (ix2 u e) * fw0 (ix2 k (lo e)))
              + ((∑ e : Fin 128, hq (ix2 h e) * fw0 (ix2 k (lo e))) + fb0 (ix1 k)))
            + ∑ e : Fin 128, te (ix2 t e) * fw0 (ix2 k (hi e))) z
        * fw1 (ix2 (0 : Fin 1) k))
    + fb1 (ix1 (0 : Fin 1))

/-- The score as the reference arranges it: the head query added to the row before the projection, the bias last. -/
def referenceForm (h : Fin 4) (u : Fin 256) (t : Fin 512) : EReal :=
  (∑ k : Fin 256,
      max (((∑ e : Fin 128, (ue (ix2 u e) + hq (ix2 h e)) * fw0 (ix2 k (lo e)))
              + ∑ e : Fin 128, te (ix2 t e) * fw0 (ix2 k (hi e)))
            + fb0 (ix1 k)) z
        * fw1 (ix2 (0 : Fin 1) k))
    + fb1 (ix1 (0 : Fin 1))

/-- The two arrangements are one function when the head queries and the first layer's weights are real. -/
theorem forms_eq (hhq : ∀ i, hq i ≠ ⊤ ∧ hq i ≠ ⊥) (hfw : ∀ i, fw0 i ≠ ⊤ ∧ fw0 i ≠ ⊥) (h : Fin 4) (u : Fin 256) (t : Fin 512) :
    kernelForm ue te hq fw0 fb0 fw1 fb1 z h u t = referenceForm ue te hq fw0 fb0 fw1 fb1 z h u t := by
  unfold kernelForm referenceForm
  refine congrArg (· + fb1 (ix1 (0 : Fin 1))) (Finset.sum_congr rfl fun k _ => ?_)
  refine congrArg (fun x => max x z * fw1 (ix2 (0 : Fin 1) k)) ?_
  rw [Cert.Lib.sum_add_mul_of_real Finset.univ (fun e => ue (ix2 u e)) (fun e => hq (ix2 h e)) (fun e => fw0 (ix2 k (lo e)))
    (fun e => hhq _) (fun e => hfw _)]
  abel

end Cert.Spec

end
-- ==== Proof.HostArrays.lean ====
/-
  The five arrays the fused region is launched on, as functions of the program's arguments.

  Before the region the kernel's program runs the two encoders (the same operations, in the same order, as the reference's:
  their results are named here by the reference's own stages `uavEmbed` and `taskEmbed`, and never opened), cuts the first
  layer's weights `fw0` into its left half `Wu` (columns 0–127) and right half `Wt` (columns 128–255), and forms

    rows     [256, 256]   rows u k    = ∑ e, uavEmbed u e · fw0 k e
    columns  [512, 256]   columns t k = ∑ e, taskEmbed t e · fw0 k (128 + e)       (the reference computes the same array)
    heads    [4, 1, 256]  heads h 0 k = (∑ e, hq h e · fw0 k e) + fb0 k
    fw1      [1, 256]     as passed
    fb1      [1, 1]       fb1 0 0     = fb1 0

  Each is first read off the region-entry contents (the fold of the host operations over the launch memory) as the
  operations' term, then read at an index: a matrix product on the host is the plain sum over the contracted axis at the
  ideal instance, a transpose swaps the coordinates, a slice shifts one.
-/
import proofs.«120223_j27444841021902_1_alg».proof.Proof.Gen.KernelIdeal.Frame
import proofs.«120223_j27444841021902_1_alg».proof.Proof.Gen.ReferenceIdeal.Read
import proofs.«120223_j27444841021902_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 8192

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Spec
open scoped BigOperators

/-! ## A host matrix product `[n, 128] · [128, 256]` at an element -/

/-- The product of a `[256, 128]` by a `[128, 256]` matrix at `(p, k)` is the sum over the 128 contracted coordinates. -/
theorem rows_dot_apply (l : FVec Ideal S256x128 .f32) (r : FVec Ideal S128x256 .f32) (p : Fin 256) (k : Fin 256) :
    Host.dotGeneral dot_S256x128_S128x256_S256x256_1_0_0_1_n_n none l r (ix2 p k) = ∑ e : Fin 128, l (ix2 p e) * r (ix2 e k) := by
  simp only [Host.dotGeneral]
  rw [Ideal.dotGeneral_apply, ← Equiv.sum_comp (contrEquiv1 dot_S256x128_S128x256_S256x256_1_0_0_1_n_n 128 rfl rfl).symm]
  refine Finset.sum_congr rfl fun e _ => ?_
  have he := contrEquiv1_symm_val dot_S256x128_S128x256_S256x256_1_0_0_1_n_n 128 rfl rfl e
  have el : dot_S256x128_S128x256_S256x256_1_0_0_1_n_n.lhsIdx (ix2 p k) ((contrEquiv1 dot_S256x128_S128x256_S256x256_1_0_0_1_n_n 128 rfl rfl).symm e) = ix2 p e :=
    funext fun a => Fin.ext (by
      match a with
      | ⟨0, _⟩ =>
        show (dot_S256x128_S128x256_S256x256_1_0_0_1_n_n.lhsIdx (ix2 p k) _ 0).val = p.val
        unfold DotDims.lhsIdx
        rw [dif_neg (show ¬(0 : Fin S256x128.rank) ∈ dot_S256x128_S128x256_S256x256_1_0_0_1_n_n.lhsBatch by decide),
          dif_pos (show (0 : Fin S256x128.rank) ∈ dot_S256x128_S128x256_S256x256_1_0_0_1_n_n.lhsNonContracting by decide)]
        rfl
      | ⟨1, _⟩ => exact (dot_S256x128_S128x256_S256x256_1_0_0_1_n_n.lhsIdx_val_of_single rfl (ix2 p k) _).trans he)
  have er : dot_S256x128_S128x256_S256x256_1_0_0_1_n_n.rhsIdx (ix2 p k) ((contrEquiv1 dot_S256x128_S128x256_S256x256_1_0_0_1_n_n 128 rfl rfl).symm e) = ix2 e k :=
    funext fun a => Fin.ext (by
      match a with
      | ⟨0, _⟩ => exact (dot_S256x128_S128x256_S256x256_1_0_0_1_n_n.rhsIdx_val_of_single rfl (ix2 p k) _).trans he
      | ⟨1, _⟩ =>
        show (dot_S256x128_S128x256_S256x256_1_0_0_1_n_n.rhsIdx (ix2 p k) _ 1).val = k.val
        unfold DotDims.rhsIdx
        rw [dif_neg (show ¬(1 : Fin S128x256.rank) ∈ dot_S256x128_S128x256_S256x256_1_0_0_1_n_n.rhsBatch by decide),
          dif_pos (show (1 : Fin S128x256.rank) ∈ dot_S256x128_S128x256_S256x256_1_0_0_1_n_n.rhsNonContracting by decide)]
        rfl)
  rw [el, er]

/-- The product of a `[4, 128]` by a `[128, 256]` matrix at `(p, k)` is the sum over the 128 contracted coordinates. -/
theorem heads_dot_apply (l : FVec Ideal S4x128 .f32) (r : FVec Ideal S128x256 .f32) (p : Fin 4) (k : Fin 256) :
    Host.dotGeneral dot_S4x128_S128x256_S4x256_1_0_0_1_n_n none l r (ix2 p k) = ∑ e : Fin 128, l (ix2 p e) * r (ix2 e k) := by
  simp only [Host.dotGeneral]
  rw [Ideal.dotGeneral_apply, ← Equiv.sum_comp (contrEquiv1 dot_S4x128_S128x256_S4x256_1_0_0_1_n_n 128 rfl rfl).symm]
  refine Finset.sum_congr rfl fun e _ => ?_
  have he := contrEquiv1_symm_val dot_S4x128_S128x256_S4x256_1_0_0_1_n_n 128 rfl rfl e
  have el : dot_S4x128_S128x256_S4x256_1_0_0_1_n_n.lhsIdx (ix2 p k) ((contrEquiv1 dot_S4x128_S128x256_S4x256_1_0_0_1_n_n 128 rfl rfl).symm e) = ix2 p e :=
    funext fun a => Fin.ext (by
      match a with
      | ⟨0, _⟩ =>
        show (dot_S4x128_S128x256_S4x256_1_0_0_1_n_n.lhsIdx (ix2 p k) _ 0).val = p.val
        unfold DotDims.lhsIdx
        rw [dif_neg (show ¬(0 : Fin S4x128.rank) ∈ dot_S4x128_S128x256_S4x256_1_0_0_1_n_n.lhsBatch by decide),
          dif_pos (show (0 : Fin S4x128.rank) ∈ dot_S4x128_S128x256_S4x256_1_0_0_1_n_n.lhsNonContracting by decide)]
        rfl
      | ⟨1, _⟩ => exact (dot_S4x128_S128x256_S4x256_1_0_0_1_n_n.lhsIdx_val_of_single rfl (ix2 p k) _).trans he)
  have er : dot_S4x128_S128x256_S4x256_1_0_0_1_n_n.rhsIdx (ix2 p k) ((contrEquiv1 dot_S4x128_S128x256_S4x256_1_0_0_1_n_n 128 rfl rfl).symm e) = ix2 e k :=
    funext fun a => Fin.ext (by
      match a with
      | ⟨0, _⟩ => exact (dot_S4x128_S128x256_S4x256_1_0_0_1_n_n.rhsIdx_val_of_single rfl (ix2 p k) _).trans he
      | ⟨1, _⟩ =>
        show (dot_S4x128_S128x256_S4x256_1_0_0_1_n_n.rhsIdx (ix2 p k) _ 1).val = k.val
        unfold DotDims.rhsIdx
        rw [dif_neg (show ¬(1 : Fin S128x256.rank) ∈ dot_S4x128_S128x256_S4x256_1_0_0_1_n_n.rhsBatch by decide),
          dif_pos (show (1 : Fin S128x256.rank) ∈ dot_S4x128_S128x256_S4x256_1_0_0_1_n_n.rhsNonContracting by decide)]
        rfl)
  rw [el, er]

/-- The transposed left half of the weights at `(e, k)` is the weights at row `k`, column `e`. -/
theorem leftHalfT_apply (fw0 : FVec Ideal S256x256 .f32) (e : Fin 128) (k : Fin 256) :
    transpose S128x256 [1, 0] (extractStridedSlice S256x128 ![0, 0] fw0 slices_S256x256_S256x128_0_0) transposes_S256x128_S128x256_1_0 (ix2 e k)
      = fw0 (ix2 k (lo e)) :=
  (transpose_ix2_apply _ transposes_S256x128_S128x256_1_0 e k).trans
    (slice2_axis1_apply 0 fw0 slices_S256x256_S256x128_0_0 k e (lo e) (Nat.zero_add _).symm)

variable (m : (ℓ : Loc nD τ sig) → Buf (Elt Ideal) ℓ) (c : Dev nD)

/-! ## The arrays by name, each at its literal shape -/

/-- The head queries, the first layer's weights and bias, the output layer's weights and bias, as launched. -/
abbrev hqArr : (⟨S4x128, .f32⟩ : BufTy).Contents (Elt Ideal) := (m ((c : Thread nD τ).loc main_arg14))
abbrev fw0Arr : (⟨S256x256, .f32⟩ : BufTy).Contents (Elt Ideal) := (m ((c : Thread nD τ).loc main_arg15))
abbrev fb0Arr : (⟨S256, .f32⟩ : BufTy).Contents (Elt Ideal) := (m ((c : Thread nD τ).loc main_arg16))
abbrev fw1Arr : (⟨S1x256, .f32⟩ : BufTy).Contents (Elt Ideal) := (m ((c : Thread nD τ).loc main_arg17))
abbrev fb1Arr : (⟨S1, .f32⟩ : BufTy).Contents (Elt Ideal) := (m ((c : Thread nD τ).loc main_arg18))

/-- The four arrays the host operations write for the region, as the region finds them. -/
abbrev rowsArr : (⟨S256x256, .f32⟩ : BufTy).Contents (Elt Ideal) := V m c main_v37
abbrev colsArr : (⟨S512x256, .f32⟩ : BufTy).Contents (Elt Ideal) := V m c main_v41
abbrev headsArr : (⟨S4x1x256, .f32⟩ : BufTy).Contents (Elt Ideal) := V m c main_v45
abbrev outBiasArr : (⟨S1x1, .f32⟩ : BufTy).Contents (Elt Ideal) := V m c main_v46

/-! ## The encoders' results, by the reference's names -/

/-- The encoded rows: the reference's stage of the same seventeen operations on the same arguments. -/
abbrev uavEmbed : (⟨S256x128, .f32⟩ : BufTy).Contents (Elt Ideal) :=
  Cert.ReferenceIdeal.Read.val_main_v16 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The encoded columns, likewise. -/
abbrev taskEmbed : (⟨S512x128, .f32⟩ : BufTy).Contents (Elt Ideal) :=
  Cert.ReferenceIdeal.Read.val_main_v33 (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## The arrays at region entry, as the host operations' terms -/

/-- The projected rows. -/
theorem rows_eq : rowsArr m c
    = Host.dotGeneral (F := Ideal) (φ₁ := .f32) (φ₂ := .f32) dot_S256x128_S128x256_S256x256_1_0_0_1_n_n none (uavEmbed m c) (transpose S128x256 [1, 0] (extractStridedSlice S256x128 ![0, 0] (fw0Arr m c) slices_S256x256_S256x128_0_0) transposes_S256x128_S128x256_1_0) := by
  show V m c main_v37 = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The projected columns: the reference's own stage. -/
theorem columns_eq : colsArr m c
    = Cert.ReferenceIdeal.Read.val_main_v43 (F := Ideal) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (fw0Arr m c) := by
  show V m c main_v41 = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The projected head queries plus the bias, with a unit middle axis. -/
theorem heads_eq : headsArr m c
    = shapeCast S4x1x256 (addf (F := Ideal) (φ := .f32) (Host.dotGeneral (F := Ideal) (φ₁ := .f32) (φ₂ := .f32) dot_S4x128_S128x256_S4x256_1_0_0_1_n_n none (hqArr m c) (transpose S128x256 [1, 0] (extractStridedSlice S256x128 ![0, 0] (fw0Arr m c) slices_S256x256_S256x128_0_0) transposes_S256x128_S128x256_1_0))
        (broadcastInDim S4x256 ![0, 1] bcast_S1x256_S4x256_0_1 (broadcastInDim S1x256 ![1] bcast_S256_S1x256_1 (fb0Arr m c)))) shapeCasts_S4x256_S4x1x256 := by
  show V m c main_v45 = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The output bias as a `[1, 1]` array. -/
theorem outBias_eq : outBiasArr m c = shapeCast S1x1 (fb1Arr m c) shapeCasts_S1_S1x1 := by
  show V m c main_v46 = _
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-! ## The same arrays at an index -/

/-- The projected rows at `(u, k)`. -/
theorem rows_apply (u : Fin 256) (k : Fin 256) :
    rowsArr m c (ix2 u k) = ∑ e : Fin 128, uavEmbed m c (ix2 u e) * fw0Arr m c (ix2 k (lo e)) := by
  rw [rows_eq, rows_dot_apply]
  exact Finset.sum_congr rfl fun e _ => congrArg (uavEmbed m c (ix2 u e) * ·) (leftHalfT_apply _ e k)

/-- The projected columns at `(t, k)`. -/
theorem columns_apply (t : Fin 512) (k : Fin 256) :
    colsArr m c (ix2 t k) = ∑ e : Fin 128, taskEmbed m c (ix2 t e) * fw0Arr m c (ix2 k (hi e)) := by
  rw [columns_eq, Cert.ReferenceIdeal.Read.val_main_v43_apply]
  refine Finset.sum_congr rfl fun e _ => ?_
  rw [Cert.ReferenceIdeal.Read.val_main_v42_apply, Cert.ReferenceIdeal.Read.val_main_v40_apply]
  refine congrArg₂ (· * ·) (congrArg _ ?_) (congrArg _ ?_)
  · exact funext fun a => by match a with | ⟨0, _⟩ => rfl | ⟨1, _⟩ => rfl
  · exact funext fun a => by match a with | ⟨0, _⟩ => rfl | ⟨1, _⟩ => rfl

/-- The head projections with the bias at `(h, 0, k)`. -/
theorem heads_apply (h : Fin 4) (k : Fin 256) :
    headsArr m c (ix3 h (0 : Fin 1) k)
      = (∑ e : Fin 128, hqArr m c (ix2 h e) * fw0Arr m c (ix2 k (lo e))) + fb0Arr m c (ix1 k) := by
  rw [heads_eq]
  refine (shapeCast_apply _ shapeCasts_S4x256_S4x1x256 (ix3 h (0 : Fin 1) k) (ix2 h k) (by
    rw [Shape.rowMajor_val_two, Shape.rowMajor_val_three]
    show h.val * 256 + k.val = (h.val * 1 + 0) * 256 + k.val
    omega)).trans ?_
  refine (addf_apply _ _ _).trans (congrArg₂ (· + ·) ?_ ?_)
  · rw [heads_dot_apply]
    exact Finset.sum_congr rfl fun e _ => congrArg (hqArr m c (ix2 h e) * ·) (leftHalfT_apply _ e k)
  · refine (broadcastInDim_apply _ bcast_S1x256_S4x256_0_1 _ (ix2 h k) (ix2 (0 : Fin 1) k) fun a => ?_).trans ?_
    · match a with
      | ⟨0, _⟩ => show 0 = if (1 : Nat) = 1 then 0 else h.val; rw [if_pos rfl]
      | ⟨1, _⟩ => show k.val = if (256 : Nat) = 1 then 0 else k.val; rw [if_neg (by decide)]
    · refine broadcastInDim_apply _ bcast_S256_S1x256_1 _ (ix2 (0 : Fin 1) k) (ix1 k) fun a => ?_
      match a with
      | ⟨0, _⟩ => show k.val = if (256 : Nat) = 1 then 0 else k.val; rw [if_neg (by decide)]

/-- The output bias at its one index. -/
theorem outBias_apply : outBiasArr m c (ix2 (0 : Fin 1) (0 : Fin 1)) = fb1Arr m c (ix1 (0 : Fin 1)) := by
  rw [outBias_eq]
  exact shapeCast_a_1a_apply _ shapeCasts_S1_S1x1 (0 : Fin 1) (0 : Fin 1)

end Cert.KernelIdeal.HostSide

end
-- ==== Proof.KernelValue.lean ====
/-
  The kernel's result at one element, as the kernel's program arranges the fused score.

  The result array after the run is `scoreArray` of the five arrays the region is launched on; each of those, read at an
  index, is a sum of products of the encoders' results and the arguments. Put together, the result at `(h, u, t)` is

      (∑ k, max (((∑ e, uavEmbed u e · fw0 k e) + ((∑ e, hq h e · fw0 k e) + fb0 k)) + ∑ e, taskEmbed t e · fw0 k (128 + e)) 0
              · fw1 0 k) + fb1 0,

  `Cert.Spec.kernelForm`.
-/
import proofs.«120223_j27444841021902_1_alg».proof.Proof.KernelArray
import proofs.«120223_j27444841021902_1_alg».proof.Proof.HostArrays
import proofs.«120223_j27444841021902_1_alg».proof.Proof.Spec

noncomputable section

namespace Cert.KernelIdeal.Score

open Cert.KernelIdeal Cert.KernelIdeal.Gen Cert.KernelIdeal.HostSide Cert.KernelIdeal.Result Cert.Spec
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The result array at `(h, u, t)` is `kernelForm` of the encoders' results and the arguments. -/
theorem score_apply (h : Fin 4) (u : Fin 256) (t : Fin 512) :
    scoreArray (V m c main_v37) (V m c main_v41) (V m c main_v45) (V m c main_arg17) (V m c main_v46) (ix3 h u t)
      = kernelForm (uavEmbed m c) (taskEmbed m c) (hqArr m c) (fw0Arr m c) (fb0Arr m c) (fw1Arr m c) (fb1Arr m c)
          (Ideal.ofBits .f32 0x00000000#32) h u t := by
  unfold scoreArray kernelForm
  refine congrArg₂ (· + ·) (Finset.sum_congr rfl fun k _ => ?_) (outBias_apply m c)
  exact congrArg₂ (· * ·)
    (congrArg₂ max (congrArg₂ (· + ·) (congrArg₂ (· + ·) (rows_apply m c u k) (heads_apply m c h k)) (columns_apply m c t k)) rfl)
    (congrFun (V_main_arg17 m c) (ix2 (0 : Fin 1) k))

end Cert.KernelIdeal.Score

end
-- ==== Proof.ReferenceValue.lean ====
/-
  The reference's result at one element, as the reference arranges the fused score.

  The reference's program is a straight line of host operations; its run's term is read one operation at a time by the
  generated stages. Chained from the result down to the two encoders' stages (which stay closed: the kernel's program
  computes the same two arrays) and to the arguments, the result at `(h, u, t)` is

      (∑ k, max (((∑ e, (uavEmbed u e + hq h e) · fw0 k e) + (∑ e, taskEmbed t e · fw0 k (128 + e))) + fb0 k) 0 · fw1 0 k) + fb1 0,

  `Cert.Spec.referenceForm`. Between the stages stand only broadcasts that insert unit axes, a reshape that drops the
  trailing unit axis, two slices and a transpose; each one's index map is a function of the coordinates, computed below.
-/
import proofs.«120223_j27444841021902_1_alg».proof.Proof.Gen.ReferenceIdeal.Read
import proofs.«120223_j27444841021902_1_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Spec
open scoped BigOperators

/-! ## The operations' index maps on coordinates -/

theorem at_v53_l (a : Fin 4) (b : Fin 256) (c : Fin 512) (z : Fin 1) (k : Fin 256) : lidx_main_v53 (ix4 a b c z) k = ix4 a b c k :=
  funext fun a => by match a with | ⟨0, _⟩ => rfl | ⟨1, _⟩ => rfl | ⟨2, _⟩ => rfl | ⟨3, _⟩ => rfl
theorem at_v53_r (a : Fin 4) (b : Fin 256) (c : Fin 512) (z : Fin 1) (k : Fin 256) : ridx_main_v53 (ix4 a b c z) k = ix2 z k :=
  funext fun a => by match a with | ⟨0, _⟩ => rfl | ⟨1, _⟩ => rfl
theorem at_v46 (a : Fin 4) (b : Fin 256) (c : Fin 512) (k : Fin 256) : idx_main_v46 (ix4 a b c k) = ix4 a b (0 : Fin 1) k :=
  funext fun a => by match a with | ⟨0, _⟩ => rfl | ⟨1, _⟩ => rfl | ⟨2, _⟩ => rfl | ⟨3, _⟩ => rfl
theorem at_v44 (a : Fin 4) (b : Fin 256) (z : Fin 1) (k : Fin 256) : idx_main_v44 (ix4 a b z k) = ix3 a b k :=
  funext fun a => by match a with | ⟨0, _⟩ => rfl | ⟨1, _⟩ => rfl | ⟨2, _⟩ => rfl
theorem at_v41_l (a : Fin 4) (b : Fin 256) (k : Fin 256) (e : Fin 128) : lidx_main_v41 (ix3 a b k) e = ix3 a b e :=
  funext fun a => by match a with | ⟨0, _⟩ => rfl | ⟨1, _⟩ => rfl | ⟨2, _⟩ => rfl
theorem at_v41_r (a : Fin 4) (b : Fin 256) (k : Fin 256) (e : Fin 128) : ridx_main_v41 (ix3 a b k) e = ix2 k e :=
  funext fun a => by match a with | ⟨0, _⟩ => rfl | ⟨1, _⟩ => rfl
theorem at_v36 (a : Fin 4) (b : Fin 256) (e : Fin 128) : idx_main_v36 (ix3 a b e) = ix3 (0 : Fin 1) b e :=
  funext fun a => by match a with | ⟨0, _⟩ => rfl | ⟨1, _⟩ => rfl | ⟨2, _⟩ => rfl
theorem at_v34 (z : Fin 1) (b : Fin 256) (e : Fin 128) : idx_main_v34 (ix3 z b e) = ix2 b e :=
  funext fun a => by match a with | ⟨0, _⟩ => rfl | ⟨1, _⟩ => rfl
theorem at_v37 (a : Fin 4) (b : Fin 256) (e : Fin 128) : idx_main_v37 (ix3 a b e) = ix3 a (0 : Fin 1) e :=
  funext fun a => by match a with | ⟨0, _⟩ => rfl | ⟨1, _⟩ => rfl | ⟨2, _⟩ => rfl
theorem at_v35 (a : Fin 4) (z : Fin 1) (e : Fin 128) : idx_main_v35 (ix3 a z e) = ix2 a e :=
  funext fun a => by match a with | ⟨0, _⟩ => rfl | ⟨1, _⟩ => rfl
theorem at_v39 (k : Fin 256) (e : Fin 128) : idx_main_v39 (ix2 k e) = ix2 k (lo e) :=
  funext fun a => by match a with | ⟨0, _⟩ => rfl | ⟨1, _⟩ => rfl
theorem at_v47 (a : Fin 4) (b : Fin 256) (c : Fin 512) (k : Fin 256) : idx_main_v47 (ix4 a b c k) = ix4 (0 : Fin 1) (0 : Fin 1) c k :=
  funext fun a => by match a with | ⟨0, _⟩ => rfl | ⟨1, _⟩ => rfl | ⟨2, _⟩ => rfl | ⟨3, _⟩ => rfl
theorem at_v45 (z z' : Fin 1) (c : Fin 512) (k : Fin 256) : idx_main_v45 (ix4 z z' c k) = ix2 c k :=
  funext fun a => by match a with | ⟨0, _⟩ => rfl | ⟨1, _⟩ => rfl
theorem at_v43_l (c : Fin 512) (k : Fin 256) (e : Fin 128) : lidx_main_v43 (ix2 c k) e = ix2 c e :=
  funext fun a => by match a with | ⟨0, _⟩ => rfl | ⟨1, _⟩ => rfl
theorem at_v43_r (c : Fin 512) (k : Fin 256) (e : Fin 128) : ridx_main_v43 (ix2 c k) e = ix2 e k :=
  funext fun a => by match a with | ⟨0, _⟩ => rfl | ⟨1, _⟩ => rfl
theorem at_v42 (e : Fin 128) (k : Fin 256) : idx_main_v42 (ix2 e k) = ix2 k e :=
  funext fun a => by match a with | ⟨0, _⟩ => rfl | ⟨1, _⟩ => rfl
theorem at_v40 (k : Fin 256) (e : Fin 128) : idx_main_v40 (ix2 k e) = ix2 k (hi e) :=
  funext fun a => by match a with | ⟨0, _⟩ => rfl | ⟨1, _⟩ => rfl
theorem at_v50 (a : Fin 4) (b : Fin 256) (c : Fin 512) (k : Fin 256) : idx_main_v50 (ix4 a b c k) = ix4 (0 : Fin 1) (0 : Fin 1) (0 : Fin 1) k :=
  funext fun a => by match a with | ⟨0, _⟩ => rfl | ⟨1, _⟩ => rfl | ⟨2, _⟩ => rfl | ⟨3, _⟩ => rfl
theorem at_v49 (z z' z'' : Fin 1) (k : Fin 256) : idx_main_v49 (ix4 z z' z'' k) = ix1 k :=
  funext fun a => by match a with | ⟨0, _⟩ => rfl
theorem at_v55 (a : Fin 4) (b : Fin 256) (c : Fin 512) (z : Fin 1) : idx_main_v55 (ix4 a b c z) = ix4 (0 : Fin 1) (0 : Fin 1) (0 : Fin 1) (0 : Fin 1) :=
  funext fun a => by match a with | ⟨0, _⟩ => rfl | ⟨1, _⟩ => rfl | ⟨2, _⟩ => rfl | ⟨3, _⟩ => rfl
theorem at_v54 (z z' z'' z''' : Fin 1) : idx_main_v54 (ix4 z z' z'' z''') = ix1 (0 : Fin 1) :=
  funext fun a => by match a with | ⟨0, _⟩ => rfl

/-- The final reshape `[4, 256, 512, 1] → [4, 256, 512]` reads `(h, u, t)` at `(h, u, t, 0)`: the row-major position
    `(256·h + u)·512 + t` splits back into its three coordinates. -/
theorem at_v57 (h : Fin 4) (u : Fin 256) (t : Fin 512) : idx_main_v57 (ix3 h u t) = ix4 h u t (0 : Fin 1) := by
  have hh := h.isLt
  have hu := u.isLt
  have ht := t.isLt
  funext a
  match a with
  | ⟨0, _⟩ => exact Fin.ext (show ((h.val * 256 + u.val) * 512 + t.val) / 131072 = h.val by omega)
  | ⟨1, _⟩ => exact Fin.ext (show ((h.val * 256 + u.val) * 512 + t.val) / 512 % 256 = u.val by omega)
  | ⟨2, _⟩ => exact Fin.ext (show ((h.val * 256 + u.val) * 512 + t.val) / 1 % 512 = t.val by omega)
  | ⟨3, _⟩ => rfl

/-! ## The result at an element -/

variable (x0 : (⟨S256x64, .f32⟩ : BufTy).Contents (Elt Ideal)) (x1 : (⟨S512x32, .f32⟩ : BufTy).Contents (Elt Ideal)) (x2 : (⟨S128x64, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x32, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S4x128, .f32⟩ : BufTy).Contents (Elt Ideal)) (x15 : (⟨S256x256, .f32⟩ : BufTy).Contents (Elt Ideal)) (x16 : (⟨S256, .f32⟩ : BufTy).Contents (Elt Ideal)) (x17 : (⟨S1x256, .f32⟩ : BufTy).Contents (Elt Ideal)) (x18 : (⟨S1, .f32⟩ : BufTy).Contents (Elt Ideal))

/-- The reference's result at `(h, u, t)` is `referenceForm` of the encoders' stages and the arguments. -/
theorem score_apply (h : Fin 4) (u : Fin 256) (t : Fin 512) :
    val_main_v57 (F := Ideal) x0 x1 x2 x3 x4 x5 x6 x7 x8 x9 x10 x11 x12 x13 x14 x15 x16 x17 x18 (ix3 h u t)
      = referenceForm (val_main_v16 (F := Ideal) x0 x2 x3 x4 x5 x6 x7) (val_main_v33 (F := Ideal) x1 x8 x9 x10 x11 x12 x13)
          x14 x15 x16 x17 x18 (Ideal.ofBits .f32 0x00000000#32) h u t := by
  rw [val_main_v57_apply, at_v57, val_main_v56_apply, val_main_v53_apply, val_main_v55_apply, val_main_v54_apply]
  simp only [val_main_v52_apply, val_main_v51_apply, val_main_v48_apply, val_main_v46_apply, val_main_v44_apply, val_main_v41_apply,
    val_main_v38_apply, val_main_v36_apply, val_main_v34_apply, val_main_v37_apply, val_main_v35_apply, val_main_v39_apply,
    val_main_v47_apply, val_main_v45_apply, val_main_v43_apply, val_main_v42_apply, val_main_v40_apply, val_main_v50_apply,
    val_main_v49_apply, val_main_call4_v0_apply, val_main_call4_cst_apply, Ideal.addf_def, Ideal.maximumf_def, Ideal.ofBits_def,
    at_v53_l, at_v53_r, at_v46, at_v44, at_v41_l, at_v41_r, at_v36, at_v34, at_v37, at_v35, at_v39, at_v47, at_v45, at_v43_l, at_v43_r, at_v42, at_v40, at_v50, at_v49, at_v55, at_v54]
  rfl

end Cert.ReferenceIdeal.RefValue

end
-- ==== Proof.FiniteInputs.lean ====
/-
  What the precondition gives: the head queries and the first layer's weights are real numbers.

  The precondition is the conjunction, over the nineteen arguments, of "every element's absolute value is below +∞",
  printed as one `and`-reduction per argument joined by eighteen `and`s. On the extended reals `|x| < +∞` says exactly that
  `x` is neither infinity. Only two of the nineteen conjuncts are used by this certificate: the head queries (argument 14)
  and the first layer's weights (argument 15), the two factors across which the reference's sum-then-project is split.
-/
import proofs.«120223_j27444841021902_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

variable [Facts]
open Facts

/-- The scalar shape has one index. -/
instance : Subsingleton S_.Idx := ⟨fun _ _ => funext fun d => d.elim0⟩

/-- An extended real whose absolute value compares below the word `0x7F800000` (+∞) is a real number. -/
theorem real_of_abs_lt_inf (x : EReal) (h : Ideal.cmp .olt (max x (-x)) (Ideal.ofBits .f32 0x7F800000#32) = 1#1) :
    x ≠ ⊤ ∧ x ≠ ⊥ := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨EReal.coe_ne_top r, EReal.coe_ne_bot r⟩

/-- Under the precondition the head queries and the first layer's weights are real at every index. -/
theorem heads_and_weights_real (a0 : FVec Ideal S256x64 .f32) (a1 : FVec Ideal S512x32 .f32) (a2 : FVec Ideal S128x64 .f32) (a3 : FVec Ideal S128 .f32) (a4 : FVec Ideal S128x128 .f32) (a5 : FVec Ideal S128 .f32) (a6 : FVec Ideal S128x128 .f32) (a7 : FVec Ideal S128 .f32) (a8 : FVec Ideal S128x32 .f32) (a9 : FVec Ideal S128 .f32) (a10 : FVec Ideal S128x128 .f32) (a11 : FVec Ideal S128 .f32) (a12 : FVec Ideal S128x128 .f32) (a13 : FVec Ideal S128 .f32) (a14 : FVec Ideal S4x128 .f32) (a15 : FVec Ideal S256x256 .f32) (a16 : FVec Ideal S256 .f32) (a17 : FVec Ideal S1x256 .f32) (a18 : FVec Ideal S1 .f32)
    (h : fn (F := Ideal) a0 a1 a2 a3 a4 a5 a6 a7 a8 a9 a10 a11 a12 a13 a14 a15 a16 a17 a18 = fun _ => 1#1) :
    (∀ i, a14 i ≠ ⊤ ∧ a14 i ≠ ⊥) ∧ (∀ i, a15 i ≠ ⊤ ∧ a15 i ≠ ⊥) := by
  have h0 := congrFun h ix0
  dsimp only [fn, fn_part1, fn_part2, fn_part3, fn_part4, fn_part5] at h0
  -- the last five `and`s, outermost first: arguments 18, 17, 16, then 15 and 14
  have h93 : IntOp.andi _ _ = 1#1 := h0
  have h88 : IntOp.andi _ _ = 1#1 := (IntOp.andi_eq_one.1 h93).1
  have h83 : IntOp.andi _ _ = 1#1 := (IntOp.andi_eq_one.1 h88).1
  have h78 : IntOp.andi _ _ = 1#1 := (IntOp.andi_eq_one.1 h83).1
  have h77 := (IntOp.andi_eq_one.1 h78).2
  have h73 : IntOp.andi _ _ = 1#1 := (IntOp.andi_eq_one.1 h78).1
  have h72 := (IntOp.andi_eq_one.1 h73).2
  exact ⟨fun i => real_of_abs_lt_inf (a14 i) (Host.reduce_andi_all _ _ _ _ _ h72 i),
    fun i => real_of_abs_lt_inf (a15 i) (Host.reduce_andi_all _ _ _ _ _ h77 i)⟩

end Cert.Pre_finite_inputs.Finite

end
-- ==== Proof.lean ====
/-
  The fused pairwise score of heads, rows and columns: the kernel's program against its reference, on the extended reals.

  Both programs encode 256 rows and 512 columns by the same two three-layer perceptrons (the same operations in the same
  order: the certificate names their results once and never opens them) and then score every (head, row, column) triple,

      score h u t = ∑ k, max (pre h u t k) 0 · fw1 k + fb1.

  The reference adds the head's query to the encoded row, projects the sum by the left half of `fw0`, adds the column's
  projection by the right half, and the bias `fb0` last. The kernel's program projects the rows and the head queries
  separately on the host, adds the bias to the head's projection there, and leaves to the fused region — a grid of
  4 × 8 × 4 points, each writing one `32 × 128` block of one head — the sum of the three, the rectifier, the product with
  `fw1`, the sum over the 256 hidden units and `fb1`.

  * `BodyValue`: what one grid point stores, element by element, from its five loaded blocks.
  * `KernelArray`: the 128 blocks are restrictions of one function of the five region arrays and tile the result, so the
    result after the run is that function; the run itself.
  * `HostArrays`: the five region arrays as sums of products of the encoders' results and the arguments.
  * `KernelValue`: the two together, `Spec.kernelForm`.
  * `ReferenceValue`: the reference's result at an element, `Spec.referenceForm`.
  * `Spec`, `LibERealDistrib`: the two forms agree once the head queries and `fw0` are real — the one place where the
    extended reals differ from a field: `(a + q) · w = a · w + q · w` needs `q` and `w` finite (not `a`) — and
    `FiniteInputs`: the precondition says they are.

  The three frames are the generated frame runs (the reference's: its generated run with the result dropped), and the
  kernel has no idealization rewrites, so `preserves` asks nothing.
-/
import proofs.«120223_j27444841021902_1_alg».proof.Defs
import proofs.«120223_j27444841021902_1_alg».proof.Proof.Gen.Kernel
import proofs.«120223_j27444841021902_1_alg».proof.Proof.Gen.Kernel.Skeleton
import proofs.«120223_j27444841021902_1_alg».proof.Proof.Gen.Kernel.Launch
import proofs.«120223_j27444841021902_1_alg».proof.Proof.Gen.Kernel.Points
import proofs.«120223_j27444841021902_1_alg».proof.Proof.Gen.Kernel.Frame
import proofs.«120223_j27444841021902_1_alg».proof.Proof.Gen.KernelIdeal
import proofs.«120223_j27444841021902_1_alg».proof.Proof.Gen.KernelIdeal.Skeleton
import proofs.«120223_j27444841021902_1_alg».proof.Proof.Gen.KernelIdeal.Launch
import proofs.«120223_j27444841021902_1_alg».proof.Proof.Gen.KernelIdeal.Points
import proofs.«120223_j27444841021902_1_alg».proof.Proof.Gen.KernelIdeal.Frame
import proofs.«120223_j27444841021902_1_alg».proof.Proof.Gen.ReferenceIdeal
import proofs.«120223_j27444841021902_1_alg».proof.Proof.Gen.Pre_finite_inputs
import proofs.«120223_j27444841021902_1_alg».proof.Proof.Gen.ReferenceIdeal.Run
import proofs.«120223_j27444841021902_1_alg».proof.Proof.Gen.ReferenceIdeal.Read
import proofs.«120223_j27444841021902_1_alg».proof.Proof.KernelValue
import proofs.«120223_j27444841021902_1_alg».proof.Proof.ReferenceValue
import proofs.«120223_j27444841021902_1_alg».proof.Proof.FiniteInputs
import Idealize.ShloMosaic.Adequacy
import Idealize.ShloMosaic.Init

noncomputable section

namespace Cert.Proof

open Idealize.ShloMosaic Idealize.SL.Sem Idealize.ShloMosaic.ValueIdx

/-- The word-level kernel terminates without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories that agree on the arguments both programs end with the same `[4, 256, 512]` array: the kernel's is
    `kernelForm`, the reference's `referenceForm`, of the same encoder results and arguments, and the two forms agree
    because the precondition makes the head queries and `fw0` real. -/
theorem algebraic : Cert.algebraic_KernelIdeal_ReferenceIdeal := by
  intro m ρ m' ρ' hpre hagree
  refine ⟨fun c => Cert.KernelIdeal.Result.scoreArray (Cert.KernelIdeal.Gen.V m c Cert.KernelIdeal.main_v37)
      (Cert.KernelIdeal.Gen.V m c Cert.KernelIdeal.main_v41) (Cert.KernelIdeal.Gen.V m c Cert.KernelIdeal.main_v45)
      (Cert.KernelIdeal.Gen.V m c Cert.KernelIdeal.main_arg17) (Cert.KernelIdeal.Gen.V m c Cert.KernelIdeal.main_v46),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hhq, hfw⟩ := Cert.Pre_finite_inputs.Finite.heads_and_weights_real _ _ _ _ _ _ _ _ _ _ _ _ _ _ _ _ _ _ _ (hpre c)
  obtain ⟨e0, e1, e2, e3, e4, e5, e6, e7, e8, e9, e10, e11, e12, e13, e14, e15, e16, e17, e18⟩ := hagree c
  rw [Cert.ReferenceIdeal.Read.val_main_v57_eq, e0, e1, e2, e3, e4, e5, e6, e7, e8, e9, e10, e11, e12, e13, e14, e15, e16, e17, e18]
  funext i
  obtain ⟨h, u, t, rfl⟩ : ∃ (h : Fin 4) (u : Fin 256) (t : Fin 512), i = ix3 h u t :=
    ⟨i 0, i 1, i 2, eq_ix3 (n0 := 4) (n1 := 256) (n2 := 512) i⟩
  exact (Cert.ReferenceIdeal.RefValue.score_apply _ _ _ _ _ _ _ _ _ _ _ _ _ _ _ _ _ _ _ h u t).trans
    ((Cert.Spec.forms_eq _ _ _ _ _ _ _ _ hhq hfw h u t).symm.trans (Cert.KernelIdeal.Score.score_apply m c h u t).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
